-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000x3 : Shape := ⟨2, ![20000000, 3]⟩
abbrev S1000000x3 : Shape := ⟨2, ![1000000, 3]⟩
abbrev S20000000 : Shape := ⟨1, ![20000000]⟩
abbrev S1000000 : Shape := ⟨1, ![1000000]⟩
abbrev S_ : Shape := ⟨0, ![]⟩

class Facts : Prop where
  bcast_S_S20000000x3 : S_.BroadcastsInDim S20000000x3 (![] : Fin 0 → Fin S20000000x3.rank)
  reducesTo_S20000000x3_S_d0_1 : S20000000x3.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_

variable [Facts]

def fn {F : FTy → Type} [FloatOps F] (main_arg0 : FVec F S20000000x3 .f32) (main_arg1 : FVec F S1000000x3 .f32) (main_arg2 : IVec S20000000 32) (main_arg3 : IVec S1000000 32) : IVec S_ 1 :=
  let main_v0 : FVec F S20000000x3 .f32 := Host.absf main_arg0
  let main_cst : FVec F S_ .f32 := constant S_ .f32 0x7F800000#32
  let main_v1 : FVec F S20000000x3 .f32 := broadcastInDim S20000000x3 ![] bcast_S_S20000000x3 main_cst
  let main_v2 : IVec S20000000x3 1 := cmpf .olt main_v0 main_v1
  let main_c : IVec S_ 1 := constantI S_ 1 1#1
  let main_v3 : IVec S_ 1 := (fun x v => Host.reduce IntOp.andi x v reducesTo_S20000000x3_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  main_v8
-- ==== Kernel.lean ====
abbrev S20000000x3 : Shape := ⟨2, ![20000000, 3]⟩
abbrev S1000000x3 : Shape := ⟨2, ![1000000, 3]⟩
abbrev S20000000 : Shape := ⟨1, ![20000000]⟩
abbrev S1000000 : Shape := ⟨1, ![1000000]⟩
abbrev S20000000x1 : Shape := ⟨2, ![20000000, 1]⟩
abbrev S10000x3 : Shape := ⟨2, ![10000, 3]⟩
abbrev S10000x1 : Shape := ⟨2, ![10000, 1]⟩
abbrev S10000 : Shape := ⟨1, ![10000]⟩
abbrev S_ : Shape := ⟨0, ![]⟩
abbrev S1000 : Shape := ⟨1, ![1000]⟩
abbrev S1000000x1 : Shape := ⟨2, ![1000000, 1]⟩

abbrev nBuf : Space → Nat
  | .hbm => 17
  | .vmem => 4
  | .smem => 0
  | _ => 0

abbrev bufTy : (tb : Table) → Fin (tcTables nBuf tb) → BufTy
  | .hbm, ⟨0, _⟩ => ⟨S20000000x3, .f32⟩
  | .hbm, ⟨1, _⟩ => ⟨S1000000x3, .f32⟩
  | .hbm, ⟨2, _⟩ => ⟨S20000000, .i32⟩
  | .hbm, ⟨3, _⟩ => ⟨S1000000, .i32⟩
  | .hbm, ⟨4, _⟩ => ⟨S20000000x1, .f32⟩
  | .hbm, ⟨5, _⟩ => ⟨S20000000, .f32⟩
  | .hbm, ⟨6, _⟩ => ⟨S_, .f32⟩
  | .hbm, ⟨7, _⟩ => ⟨S1000000, .f32⟩
  | .hbm, ⟨8, _⟩ => ⟨S20000000x1, .i32⟩
  | .hbm, ⟨9, _⟩ => ⟨S1000000, .f32⟩
  | .hbm, ⟨10, _⟩ => ⟨S_, .f32⟩
  | .hbm, ⟨11, _⟩ => ⟨S1000, .f32⟩
  | .hbm, ⟨12, _⟩ => ⟨S1000000x1, .i32⟩
  | .hbm, ⟨13, _⟩ => ⟨S1000, .f32⟩
  | .hbm, ⟨14, _⟩ => ⟨S_, .f32⟩
  | .hbm, ⟨15, _⟩ => ⟨S1000, .f32⟩
  | .hbm, ⟨16, _⟩ => ⟨S1000, .f32⟩
  | .local _ .vmem, ⟨0, _⟩ => ⟨S10000x3, .f32⟩
  | .local _ .vmem, ⟨1, _⟩ => ⟨S10000x3, .f32⟩
  | .local _ .vmem, ⟨2, _⟩ => ⟨S10000x1, .f32⟩
  | .local _ .vmem, ⟨3, _⟩ => ⟨S10000x1, .f32⟩
  | _, _ => ⟨S20000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S10000x3_S10000x3_0_0 : ∀ a, (![0, 0] : Fin 2 → Nat) a + S10000x3.size a ≤ S10000x3.size a
  h_S10000x3 : 0 < S10000x3.numel
  reduces_S10000x3_S10000 : S10000x3.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S20000000x1_S20000000 : S20000000x1.ShapeCasts S20000000
  bcast_S_S1000000 : S_.BroadcastsInDim S1000000 (![] : Fin 0 → Fin S1000000.rank)
  bcast_S20000000_S20000000x1_0 : S20000000.BroadcastsInDim S20000000x1 (![0] : Fin 1 → Fin S20000000x1.rank)
  bcast_S_S1000 : S_.BroadcastsInDim S1000 (![] : Fin 0 → Fin S1000.rank)
  bcast_S1000000_S1000000x1_0 : S1000000.BroadcastsInDim S1000000x1 (![0] : Fin 1 → Fin S1000000x1.rank)
  scatter_S1000000_S20000000x1_S20000000_n_0_0_1_wf : ScatterDims.WF S1000000 S20000000x1 S20000000 [] [0] [0] 1
  scatter_S1000_S1000000x1_S1000000_n_0_0_1_wf : ScatterDims.WF S1000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S20000000x3.size a
  hwx0_0 : ∀ i : grid0.Coords, EltTy.bits .f32 = 32 ∨ (Rect.block (s := S20000000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S20000000x1.size a
  hwx0_1 : ∀ i : grid0.Coords, EltTy.bits .f32 = 32 ∨ (Rect.block (s := S20000000x1) S10000x1.size (cc0_transform_1 i) (hinb0_1 i)).WholeWords (EltTy.packing .f32)

variable [Facts₀]

def scatter_S1000000_S20000000x1_S20000000_n_0_0_1 : ScatterDims S1000000 S20000000x1 S20000000 where
  updateWindowDims := []
  insertedWindowDims := [0]
  scatterDimsToOperandDims := [0]
  indexVectorDim := 1
  wf := scatter_S1000000_S20000000x1_S20000000_n_0_0_1_wf
def scatter_S1000_S1000000x1_S1000000_n_0_0_1 : ScatterDims S1000 S1000000x1 S1000000 where
  updateWindowDims := []
  insertedWindowDims := [0]
  scatterDimsToOperandDims := [0]
  indexVectorDim := 1
  wf := scatter_S1000_S1000000x1_S1000000_n_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S20000000x3 : Shape := ⟨2, ![20000000, 3]⟩
abbrev S1000000x3 : Shape := ⟨2, ![1000000, 3]⟩
abbrev S20000000 : Shape := ⟨1, ![20000000]⟩
abbrev S1000000 : Shape := ⟨1, ![1000000]⟩
abbrev S_ : Shape := ⟨0, ![]⟩
abbrev S20000000x1 : Shape := ⟨2, ![20000000, 1]⟩
abbrev S1000000x1 : Shape := ⟨2, ![1000000, 1]⟩
abbrev S1000x1 : Shape := ⟨2, ![1000, 1]⟩
abbrev S1000 : Shape := ⟨1, ![1000]⟩

abbrev nBuf : Space → Nat
  | .hbm => 59
  | .vmem => 0
  | .smem => 0
  | _ => 0

abbrev bufTy : (tb : Table) → Fin (tcTables nBuf tb) → BufTy
  | .hbm, ⟨0, _⟩ => ⟨S20000000x3, .f32⟩
  | .hbm, ⟨1, _⟩ => ⟨S1000000x3, .f32⟩
  | .hbm, ⟨2, _⟩ => ⟨S20000000, .i32⟩
  | .hbm, ⟨3, _⟩ => ⟨S1000000, .i32⟩
  | .hbm, ⟨4, _⟩ => ⟨S20000000x3, .f32⟩
  | .hbm, ⟨5, _⟩ => ⟨S_, .f32⟩
  | .hbm, ⟨6, _⟩ => ⟨S20000000, .f32⟩
  | .hbm, ⟨7, _⟩ => ⟨S20000000x1, .f32⟩
  | .hbm, ⟨8, _⟩ => ⟨S20000000x1, .f32⟩
  | .hbm, ⟨9, _⟩ => ⟨S_, .f32⟩
  | .hbm, ⟨10, _⟩ => ⟨S20000000x1, .f32⟩
  | .hbm, ⟨11, _⟩ => ⟨S20000000x1, .f32⟩
  | .hbm, ⟨12, _⟩ => ⟨S_, .f32⟩
  | .hbm, ⟨13, _⟩ => ⟨S20000000x1, .f32⟩
  | .hbm, ⟨14, _⟩ => ⟨S20000000x1, .f32⟩
  | .hbm, ⟨15, _⟩ => ⟨S20000000x1, .f32⟩
  | .hbm, ⟨16, _⟩ => ⟨S_, .f32⟩
  | .hbm, ⟨17, _⟩ => ⟨S20000000x1, .f32⟩
  | .hbm, ⟨18, _⟩ => ⟨S20000000x1, .f32⟩
  | .hbm, ⟨19, _⟩ => ⟨S_, .f32⟩
  | .hbm, ⟨20, _⟩ => ⟨S20000000x1, .f32⟩
  | .hbm, ⟨21, _⟩ => ⟨S20000000x1, .f32⟩
  | .hbm, ⟨22, _⟩ => ⟨S20000000x1, .f32⟩
  | .hbm, ⟨23, _⟩ => ⟨S_, .f32⟩
  | .hbm, ⟨24, _⟩ => ⟨S20000000x1, .f32⟩
  | .hbm, ⟨25, _⟩ => ⟨S20000000x1, .f32⟩
  | .hbm, ⟨26, _⟩ => ⟨S_, .f32⟩
  | .hbm, ⟨27, _⟩ => ⟨S20000000x1, .f32⟩
  | .hbm, ⟨28, _⟩ => ⟨S20000000x1, .i1⟩
  | .hbm, ⟨29, _⟩ => ⟨S_, .f32⟩
  | .hbm, ⟨30, _⟩ => ⟨S20000000x1, .f32⟩
  | .hbm, ⟨31, _⟩ => ⟨S20000000x1, .f32⟩
  | .hbm, ⟨32, _⟩ => ⟨S_, .f32⟩
  | .hbm, ⟨33, _⟩ => ⟨S20000000x1, .f32⟩
  | .hbm, ⟨34, _⟩ => ⟨S20000000x1, .i1⟩
  | .hbm, ⟨35, _⟩ => ⟨S_, .f32⟩
  | .hbm, ⟨36, _⟩ => ⟨S20000000x1, .f32⟩
  | .hbm, ⟨37, _⟩ => ⟨S20000000x1, .f32⟩
  | .hbm, ⟨38, _⟩ => ⟨S_, .f32⟩
  | .hbm, ⟨39, _⟩ => ⟨S20000000x1, .f32⟩
  | .hbm, ⟨40, _⟩ => ⟨S20000000x1, .f32⟩
  | .hbm, ⟨41, _⟩ => ⟨S20000000x1, .f32⟩
  | .hbm, ⟨42, _⟩ => ⟨S20000000x1, .f32⟩
  | .hbm, ⟨43, _⟩ => ⟨S20000000x1, .f32⟩
  | .hbm, ⟨44, _⟩ => ⟨S20000000x1, .f32⟩
  | .hbm, ⟨45, _⟩ => ⟨S20000000x1, .f32⟩
  | .hbm, ⟨46, _⟩ => ⟨S20000000x1, .f32⟩
  | .hbm, ⟨47, _⟩ => ⟨S_, .f32⟩
  | .hbm, ⟨48, _⟩ => ⟨S1000000x1, .f32⟩
  | .hbm, ⟨49, _⟩ => ⟨S20000000x1, .i32⟩
  | .hbm, ⟨50, _⟩ => ⟨S1000000x1, .f32⟩
  | .hbm, ⟨51, _⟩ => ⟨S_, .f32⟩
  | .hbm, ⟨52, _⟩ => ⟨S1000x1, .f32⟩
  | .hbm, ⟨53, _⟩ => ⟨S1000000x1, .i32⟩
  | .hbm, ⟨54, _⟩ => ⟨S1000x1, .f32⟩
  | .hbm, ⟨55, _⟩ => ⟨S1000, .f32⟩
  | .hbm, ⟨56, _⟩ => ⟨S_, .f32⟩
  | .hbm, ⟨57, _⟩ => ⟨S1000, .f32⟩
  | .hbm, ⟨58, _⟩ => ⟨S1000, .f32⟩
  | _, _ => ⟨S20000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  reducesTo_S20000000x3_S20000000_d1 : S20000000x3.ReducesTo [1] S20000000
  h_S_ : 0 < S_.numel
  bcast_S20000000_S20000000x1_0 : S20000000.BroadcastsInDim S20000000x1 (![0] : Fin 1 → Fin S20000000x1.rank)
  bcast_S_S20000000x1 : S_.BroadcastsInDim S20000000x1 (![] : Fin 0 → Fin S20000000x1.rank)
  bcast_S_S1000000x1 : S_.BroadcastsInDim S1000000x1 (![] : Fin 0 → Fin S1000000x1.rank)
  bcast_S_S1000x1 : S_.BroadcastsInDim S1000x1 (![] : Fin 0 → Fin S1000x1.rank)
  bcast_S1000000_S1000000x1_0 : S1000000.BroadcastsInDim S1000000x1 (![0] : Fin 1 → Fin S1000000x1.rank)
  shapeCasts_S1000x1_S1000 : S1000x1.ShapeCasts S1000
  bcast_S_S1000 : S_.BroadcastsInDim S1000 (![] : Fin 0 → Fin S1000.rank)
  scatter_S1000000x1_S20000000x1_S20000000x1_1_0_0_1_wf : ScatterDims.WF S1000000x1 S20000000x1 S20000000x1 [1] [0] [0] 1
  scatter_S1000x1_S1000000x1_S1000000x1_1_0_0_1_wf : ScatterDims.WF S1000x1 S1000000x1 S1000000x1 [1] [0] [0] 1

variable [Facts₀]

def scatter_S1000000x1_S20000000x1_S20000000x1_1_0_0_1 : ScatterDims S1000000x1 S20000000x1 S20000000x1 where
  updateWindowDims := [1]
  insertedWindowDims := [0]
  scatterDimsToOperandDims := [0]
  indexVectorDim := 1
  wf := scatter_S1000000x1_S20000000x1_S20000000x1_1_0_0_1_wf
def scatter_S1000x1_S1000000x1_S1000000x1_1_0_0_1 : ScatterDims S1000x1 S1000000x1 S1000000x1 where
  updateWindowDims := [1]
  insertedWindowDims := [0]
  scatterDimsToOperandDims := [0]
  indexVectorDim := 1
  wf := scatter_S1000x1_S1000000x1_S1000000x1_1_0_0_1_wf

class Facts : Prop extends Facts₀ where

variable [Facts]
-- ==== Proof.EdgeLaw.lean ====
/-
  The pointwise mathematics of one edge of the pair potential, on the extended reals.

  With s = |v|² the squared length of an edge vector (a sum of three squares, so 0 ≤ s ≤ +∞):
  one program forms the sixth inverse power as (1/s)·(1/s)·(1/s), the other as x²·(x²·x²) with
  x = 1/√s; and one scales the switching argument by the factor 2 where the other divides by 1/2.
  Both pairs agree at every s in [0, +∞]: at s = 0 both inverse powers are +∞, at s = +∞ both are 0,
  and in between (1/√s)² = 1/s over the reals. Division by the real 1/2 is the product with 2 at
  every extended real.
-/
import Idealize.ShloMosaic.PureOps.Ideal
import Idealize.ShloMosaic.PureOps.Ideal.Laws

noncomputable section

namespace Cert.PairEnergy

open Idealize.ShloMosaic

/-- The pattern of 1.0 denotes 1. -/
theorem ofBits_one : Ideal.ofBits .f32 0x3F800000#32 = 1 := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- A square of an extended real is nonnegative ((-∞)·(-∞) = +∞). -/
theorem mul_self_nonneg (x : EReal) : 0 ≤ x * x := by
  induction x using EReal.rec with
  | bot => rw [EReal.bot_mul_bot]; exact le_top
  | coe r => rw [← EReal.coe_mul]; exact_mod_cast _root_.mul_self_nonneg r
  | top => rw [EReal.top_mul_top]; exact le_top

/-- Dividing by the real 1/2 is multiplying by the real 2, at every extended real. -/
theorem div_half (x : EReal) : Ideal.div x ((1 / 2 : ℝ) : EReal) = x * ((2 : ℝ) : EReal) := by
  rw [Ideal.div_coe (by norm_num : (1 / 2 : ℝ) ≠ 0)]
  norm_num

/-- The sixth inverse power of the length, formed from 1/√s as x²·(x²·x²), is the cube of 1/s, for every
    squared length s in [0, +∞]. -/
theorem inv_pow_six (s : EReal) (hs : 0 ≤ s) :
    (Ideal.div 1 (Ideal.sqrt s) * Ideal.div 1 (Ideal.sqrt s))
        * ((Ideal.div 1 (Ideal.sqrt s) * Ideal.div 1 (Ideal.sqrt s))
          * (Ideal.div 1 (Ideal.sqrt s) * Ideal.div 1 (Ideal.sqrt s)))
      = Ideal.div 1 s * Ideal.div 1 s * Ideal.div 1 s := by
  induction s using EReal.rec with
  | bot => exact absurd hs (not_le.mpr EReal.bot_lt_zero)
  | top =>
    have h : Ideal.div 1 (⊤ : EReal) = 0 := by
      rw [Ideal.div, if_neg EReal.top_ne_zero, EReal.inv_top, mul_zero]
    rw [Ideal.sqrt_top, h]; simp
  | coe r =>
    have hr : 0 ≤ r := by exact_mod_cast hs
    rw [Ideal.sqrt_coe, if_neg (not_lt.mpr hr)]
    rcases hr.eq_or_lt with h0 | hpos
    · subst h0
      have h : Ideal.div 1 ((0 : ℝ) : EReal) = ⊤ := by
        rw [Ideal.div, if_pos (by simp), if_pos (by simp)]
      rw [Real.sqrt_zero, h]; simp
    · have hsq : 0 < Real.sqrt r := Real.sqrt_pos.mpr hpos
      rw [Ideal.div_coe hsq.ne', Ideal.div_coe hpos.ne', one_mul, one_mul]
      simp only [← EReal.coe_mul]
      congr 1
      have h2 : Real.sqrt r * Real.sqrt r = r := Real.mul_self_sqrt hpos.le
      have key : 1 / Real.sqrt r * (1 / Real.sqrt r) = 1 / r := by
        rw [div_mul_div_comm, one_mul, h2]
      rw [key]; ring

end Cert.PairEnergy

end
-- ==== Proof.Spec.lean ====
/-
  The specification: the molecular energies as ONE function of the argument arrays.

  For an edge k with vector v_k, s_k = |v_k|² is the sum of the three squared components, and the edge's
  pair energy is `edge s_k`: with r = √s, the switching argument t = (r − 2)·2, the switch
  1 + t²(2t − 3) where r > 2, replaced by 0 where r > 2.5, and 1 elsewhere; q = 1/s, p₆ = q³; the energy
  is (p₆² − p₆) · switch. An atom's energy is the sum of the energies of the edges whose segment id names
  it, a molecule's the sum of the energies of the atoms whose molecule id names it, and the result is half
  of that. An id outside its range names nothing. The float constants are kept as the bit patterns both
  programs spell.
-/
import proofs.«100209_j70171175682200_2_alg».proof.Proof.EdgeLaw
import Idealize.ShloMosaic.Lib.ValueIdx

noncomputable section

namespace Cert.PairEnergy

open Idealize.ShloMosaic Idealize.ShloMosaic.ValueIdx
open scoped BigOperators

/-- The squared length of edge `k`: the sum of its three squared components. -/
def sqLen (v : (⟨2, ![20000000, 3]⟩ : Shape).Idx → EReal) (k : Fin 20000000) : EReal :=
  ∑ c : Fin 3, v (ix2 k c) * v (ix2 k c)

/-- A squared length is nonnegative. -/
theorem sqLen_nonneg (v : (⟨2, ![20000000, 3]⟩ : Shape).Idx → EReal) (k : Fin 20000000) : 0 ≤ sqLen v k :=
  Finset.sum_nonneg fun c _ => mul_self_nonneg (v (ix2 k c))

/-- The pair energy of an edge of squared length `s`. -/
def edge (s : EReal) : EReal :=
  (Ideal.div (Ideal.ofBits .f32 0x3F800000#32) s * Ideal.div (Ideal.ofBits .f32 0x3F800000#32) s
        * Ideal.div (Ideal.ofBits .f32 0x3F800000#32) s
      * (Ideal.div (Ideal.ofBits .f32 0x3F800000#32) s * Ideal.div (Ideal.ofBits .f32 0x3F800000#32) s
        * Ideal.div (Ideal.ofBits .f32 0x3F800000#32) s)
    - Ideal.div (Ideal.ofBits .f32 0x3F800000#32) s * Ideal.div (Ideal.ofBits .f32 0x3F800000#32) s
        * Ideal.div (Ideal.ofBits .f32 0x3F800000#32) s)
  * Scalar.select (Ideal.cmp .ogt (Ideal.sqrt s) (Ideal.ofBits .f32 0x40200000#32))
      (Ideal.ofBits .f32 0x00000000#32)
      (Scalar.select (Ideal.cmp .ogt (Ideal.sqrt s) (Ideal.ofBits .f32 0x40000000#32))
        (Ideal.ofBits .f32 0x3F800000#32
          + (Ideal.sqrt s - Ideal.ofBits .f32 0x40000000#32) * Ideal.ofBits .f32 0x40000000#32
              * ((Ideal.sqrt s - Ideal.ofBits .f32 0x40000000#32) * Ideal.ofBits .f32 0x40000000#32)
            * (Ideal.ofBits .f32 0x40000000#32
                * ((Ideal.sqrt s - Ideal.ofBits .f32 0x40000000#32) * Ideal.ofBits .f32 0x40000000#32)
              - Ideal.ofBits .f32 0x40400000#32))
        (Ideal.ofBits .f32 0x3F800000#32))

/-- The energy of atom `a`: the energies of the edges whose segment id is `a`, summed onto zero. -/
def atomEnergy (v : (⟨2, ![20000000, 3]⟩ : Shape).Idx → EReal) (seg : (⟨1, ![20000000]⟩ : Shape).Idx → BitVec 32)
    (a : Fin 1000000) : EReal :=
  Ideal.ofBits .f32 0x00000000#32
    + ∑ k : Fin 20000000, if (seg (ix1 k)).toInt = ((a.val : ℕ) : ℤ) then edge (sqLen v k) else 0

/-- The energy of molecule `i`: the energies of the atoms whose molecule id is `i`, summed onto zero. -/
def molEnergy (v : (⟨2, ![20000000, 3]⟩ : Shape).Idx → EReal) (seg : (⟨1, ![20000000]⟩ : Shape).Idx → BitVec 32)
    (mol : (⟨1, ![1000000]⟩ : Shape).Idx → BitVec 32) (i : Fin 1000) : EReal :=
  Ideal.ofBits .f32 0x00000000#32
    + ∑ a : Fin 1000000, if (mol (ix1 a)).toInt = ((i.val : ℕ) : ℤ) then atomEnergy v seg a else 0

/-- THE RESULT: half of each molecule's energy. -/
def energy (v : (⟨2, ![20000000, 3]⟩ : Shape).Idx → EReal) (seg : (⟨1, ![20000000]⟩ : Shape).Idx → BitVec 32)
    (mol : (⟨1, ![1000000]⟩ : Shape).Idx → BitVec 32) : (⟨1, ![1000]⟩ : Shape).Idx → EReal :=
  fun i => Ideal.ofBits .f32 0x3F000000#32 * molEnergy v seg mol (i 0)

end Cert.PairEnergy

end
-- ==== Proof.KernelEdge.lean ====
/-
  What the kernel's body stores, read at one row of its block: the pair energy of that row's squared length.

  The body squares the block's 10000 × 3 entries, sums each row's three squares (a lane sum, then a cast of
  the 10000 sums to a column), and applies the pointwise arithmetic of `PairEnergy.edge` to the column. So
  the stored column at row p is `edge` of the sum over c of the block's entry (p, c) squared.
-/
import proofs.«100209_j70171175682200_2_alg».proof.Proof.Gen.KernelIdeal.Skeleton
import proofs.«100209_j70171175682200_2_alg».proof.Proof.Spec
import Idealize.ShloMosaic.PureOps.Ideal.Laws
import Idealize.ShloMosaic.Lib.Pipeline.Value

noncomputable section

namespace Cert.KernelIdeal.Payload

open Cert.KernelIdeal Cert.KernelIdeal.Gen Idealize.ShloMosaic Idealize.ShloMosaic.ValueIdx Cert.PairEnergy
open scoped BigOperators

/-- The lane sum of a 10000 × 3 vector at row p is the sum of the row's three entries. -/
theorem laneSum_apply (y : FVec Ideal S10000x3 .f32) (hφ : FKind.Formats .f32)
    (hacc : (0x00000000#32 : BitVec 32) = 0x00000000#32) (p : Fin 10000) :
    multiReduction .add [1] S10000 y 0x00000000#32 reduces_S10000x3_S10000 hφ hacc (ix1 p)
      = ∑ c : Fin 3, y (ix2 p c) := by
  refine (Ideal.multiReduction_add_single y 0x00000000#32 reduces_S10000x3_S10000 hφ hacc (ix1 p)).trans ?_
  refine Finset.sum_congr rfl fun c _ => congrArg y ?_
  funext a; refine Fin.ext ?_
  match a with
  | ⟨0, _⟩ => rfl
  | ⟨1, _⟩ => rfl

/-- The column of row sums at (p, 0) is row p's sum. -/
theorem column_apply (z : FVec Ideal S10000 .f32) (p : Fin 10000) :
    shapeCast S10000x1 z shapeCasts_S10000_S10000x1 (ix2 p 0) = z (ix1 p) :=
  shapeCast_apply z shapeCasts_S10000_S10000x1 (ix2 p 0) (ix1 p) (by
    rw [Shape.rowMajor_val_two, Shape.rowMajor_val_one]; show p.val = p.val * 1 + 0; omega)

/-- THE STORED COLUMN AT ROW p: the pair energy of the row's squared length. -/
theorem pay_apply (x : FVec Ideal S10000x3 .f32) (p : Fin 10000) :
    k0_pay1 (F := Ideal) x (ix2 p 0) = edge (∑ c : Fin 3, x (ix2 p c) * x (ix2 p c)) := by
  have key : shapeCast S10000x1 (multiReduction (F := Ideal) .add [1] S10000 (mulf (F := Ideal) x x) 0x00000000#32
        reduces_S10000x3_S10000 (.inl rfl) rfl)
      shapeCasts_S10000_S10000x1 (ix2 p 0) = ∑ c : Fin 3, x (ix2 p c) * x (ix2 p c) := by
    refine ((column_apply _ p).trans (laneSum_apply (mulf (F := Ideal) x x) (.inl rfl) rfl p)).trans ?_
    rfl
  rw [← key]
  rfl

end Cert.KernelIdeal.Payload

end
-- ==== Proof.KernelArray.lean ====
/-
  The array of edge energies the kernel's region leaves: one function of the argument array, index by index.

  Grid point t works on rows 10000·t … 10000·t + 9999: its input block is those rows of the 20000000 × 3 array
  of edge vectors and its output block those rows of the 20000000 × 1 array of energies. The body's stored
  column at row p of the block is the pair energy of the squared length of the block's row p, that is of edge
  10000·t + p. The 2000 output blocks tile the energies array (row r lies in block r / 10000), so after the
  region the array holds, at (k, 0), the pair energy of edge k's squared length.
-/
import proofs.«100209_j70171175682200_2_alg».proof.Proof.Gen.KernelIdeal.Frame
import proofs.«100209_j70171175682200_2_alg».proof.Proof.KernelEdge
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.PairEnergy
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The energies column of an array of edge vectors: at (k, 0) the pair energy of edge k's squared length. -/
def edges (v : (⟨2, ![20000000, 3]⟩ : Shape).Idx → EReal) : (⟨2, ![20000000, 1]⟩ : Shape).Idx → EReal :=
  fun i => edge (sqLen v (i 0))

/-- The block index maps over the grid: at point t both windows are at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (p, cc) of point t's input block is entry (10000·t + p, cc) of the array of edge vectors. -/
theorem in_block (c : Dev nD) (t : Fin cfg0.N) (p : Fin 10000) (cc : Fin 3) (k : Fin 20000000)
    (hk : k.val = t.val * 10000 + p.val) :
    (iblk m c 0 t : FVec Ideal S10000x3 .f32) (ix2 p cc) = (V m c main_arg0 : S20000000x3.Idx → EReal) (ix2 k cc) := by
  obtain ⟨e0, e1, -, -⟩ := idx_facts t
  unfold iblk
  rw [View.read_apply]
  show V m c main_arg0 _ = V m c main_arg0 _
  refine congrArg (V m c main_arg0) ?_
  funext a; apply Fin.ext
  match a with
  | ⟨0, _⟩ => show win0_0.index t (0 : Fin 2) * 10000 + 1 * p.val = k.val; rw [e0, hk]; omega
  | ⟨1, _⟩ => show win0_0.index t (1 : Fin 2) * 3 + 1 * cc.val = cc.val; rw [e1]; omega

/-- Row p of point t's output block is row 10000·t + p of the energies array. -/
theorem out_block (t : Fin cfg0.N) (p : Fin 10000) (k : Fin 20000000) (hk : k.val = t.val * 10000 + p.val) :
    ((cfg0.win 1).blk t).view.emb (ix2 p (0 : Fin 1)) = (ix2 k (0 : Fin 1) : S20000000x1.Idx) := by
  obtain ⟨-, -, e2, e3⟩ := idx_facts t
  funext a; apply Fin.ext
  match a with
  | ⟨0, _⟩ => show win0_1.index t (0 : Fin 2) * 10000 + 1 * p.val = k.val; rw [e2, hk]; omega
  | ⟨1, _⟩ => show win0_1.index t (1 : Fin 2) * 1 + 1 * 0 = 0; rw [e3]

/-- WHAT POINT t WRITES BACK is block t of the energies column of the array of edge vectors. -/
theorem flushed_eq (c : Dev nD) (t : Fin cfg0.N) :
    (dats m 0 c).flushed 1 t = ((cfg0.win 1).blk t).view.read (Elt Ideal) (edges (V m c main_arg0)) := by
  show (cfg0.win 1).cut (grid0.coords t) ((dats m 0 c).after 1 t) = _
  rw [after0_1]
  unfold out0_1
  rw [View.canon_unit_zero hz]
  simp only [View.ld_unit_zero (S := S10000x3) hz]
  funext j
  obtain ⟨p, q, rfl⟩ : ∃ (p : Fin 10000) (q : Fin 1), j = ix2 p q := ⟨j 0, j 1, eq_ix2 j⟩
  obtain rfl : q = 0 := Subsingleton.elim _ _
  have hN : cfg0.N = 2000 := N_0
  have hk : t.val * 10000 + p.val < 20000000 := by have := t.isLt; have := p.isLt; omega
  show k0_pay1 (F := Ideal) (iblk m c 0 t) (ix2 p 0) = edges (V m c main_arg0) (((cfg0.win 1).blk t).view.emb (ix2 p 0))
  rw [out_block t p ⟨_, hk⟩ rfl]
  refine (Payload.pay_apply (iblk m c 0 t) p).trans ?_
  show edge _ = edge (sqLen _ _)
  refine congrArg edge (Finset.sum_congr rfl fun cc _ => ?_)
  rw [in_block m c t p cc ⟨_, hk⟩ rfl]

/-- An index of the energies array is in point t's block iff each coordinate is in the block's range. -/
theorem mem_blk (t : Fin cfg0.N) (i : S20000000x1.Idx) :
    i ∈ ((cfg0.win 1).blk t).view.set ↔ ∀ a : Fin 2, win0_1.index t a * S10000x1.size a ≤ (i a).val
      ∧ (i a).val < win0_1.index t a * S10000x1.size a + S10000x1.size a := by
  show i ∈ ((View.whole main_v0).slice (win0_1.rect t)).set ↔ _
  rw [View.set_slice_whole, Rect.mem_set_unit]
  exact Iff.rfl

/-- The output blocks tile the energies array: row r is in the block of point r / 10000. -/
theorem cover (i : S20000000x1.Idx) :
    ∃ t : Fin cfg0.N, (cfg0.win 1).flush t = true ∧ i ∈ ((cfg0.win 1).blk t).view.set := by
  have hi0 : (i 0).val < 20000000 := (i 0).isLt
  have hi1 : (i 1).val < 1 := (i 1).isLt
  have hN : cfg0.N = 2000 := N_0
  have ht : (i 0).val / 10000 < cfg0.N := by rw [hN]; omega
  obtain ⟨-, -, e2, e3⟩ := idx_facts ⟨(i 0).val / 10000, ht⟩
  refine ⟨⟨(i 0).val / 10000, ht⟩, flush0_1 _, ?_⟩
  rw [mem_blk]
  intro a
  match a with
  | ⟨0, _⟩ =>
    show win0_1.index ⟨(i 0).val / 10000, ht⟩ (0 : Fin 2) * 10000 ≤ (i 0).val
      ∧ (i 0).val < win0_1.index ⟨(i 0).val / 10000, ht⟩ (0 : Fin 2) * 10000 + 10000
    rw [e2]; show (i 0).val / 10000 * 10000 ≤ (i 0).val ∧ (i 0).val < (i 0).val / 10000 * 10000 + 10000; omega
  | ⟨1, _⟩ =>
    show win0_1.index ⟨(i 0).val / 10000, ht⟩ (1 : Fin 2) * 1 ≤ (i 1).val
      ∧ (i 1).val < win0_1.index ⟨(i 0).val / 10000, ht⟩ (1 : Fin 2) * 1 + 1
    rw [e3]; omega

/-- THE ENERGIES ARRAY after the region: the energies column of the array of edge vectors as launched. -/
theorem final_edges (c : Dev nD) :
    (dats m 0 c).arrAt 1 cfg0.N = edges (m ((c : Thread nD τ).loc main_arg0)) :=
  ((dats m 0 c).arrAt_eq_of_cover 1 (edges (V m c main_arg0)) (fun t _ => flushed_eq m c t) cover).trans
    (by rw [V_main_arg0])

end Cert.KernelIdeal.ArrayValue

end
-- ==== Proof.LibSegmentSum.lean ====
/-
  An accumulating scatter of a flat list of updates into a flat array, read at an index — the form a
  segment sum `out[seg[k]] += data[k]` takes — in its two spellings: updates and result as flat arrays
  (`[e]` into `[n]`), and as one-column matrices (`[e, 1]` into `[n, 1]`, the column a window axis).
  In both the result at position `i` is the operand there plus the sum, over the update rows `k` whose
  segment id (the index array's entry `[k, 0]`, read as a signed integer) equals `i`, of update `k`;
  an id outside `[0, n)` names no position and its update is dropped. So the two spellings are one
  function, up to the reshaping of a column into a flat array.
-/
import Idealize.ShloMosaic.PureOps.Ideal
import Idealize.ShloMosaic.Lib.ValueIdx
import Idealize.ShloMosaic.Lib.Pipeline.Value

noncomputable section

namespace Idealize.ShloMosaic.SegmentSum

open Idealize.ShloMosaic Idealize.ShloMosaic.ValueIdx
open scoped BigOperators

/-! ## Flat arrays and one-column matrices are indexed by their rows -/

/-- A flat array's indices are its positions. -/
def rowEquiv1 {n : Nat} : (⟨1, ![n]⟩ : Shape).Idx ≃ Fin n where
  toFun j := j 0
  invFun := ix1
  left_inv j := (eq_ix1 j).symm
  right_inv _ := rfl

/-- A one-column matrix's indices are its rows. -/
def rowEquiv2 {n : Nat} : (⟨2, ![n, 1]⟩ : Shape).Idx ≃ Fin n where
  toFun j := j 0
  invFun a := ix2 a 0
  left_inv j := by
    funext a
    match a with
    | ⟨0, _⟩ => rfl
    | ⟨1, _⟩ => exact Subsingleton.elim (α := Fin 1) _ _
  right_inv _ := rfl

/-- On the extended reals the host's accumulating scatter is the exact sum, whatever the schedule. -/
theorem scatterAdd_ideal {φ : FTy} {s si u : Shape} {w : Nat} (d : ScatterDims s si u) (x : FVec Ideal s φ)
    (idx : IVec si w) (upd : FVec Ideal u φ) :
    Host.scatterAdd (F := Ideal) d x idx upd = Ideal.hostScatterAdd d x idx upd := rfl

/-! ## The layout operations around a segment sum, read at an index -/

/-- The ids `[n]` broadcast to the index array `[n, 1]` read, at `(k, 0)`, id `k`. -/
theorem ids_apply {α : Type} {n : Nat} (h : (⟨1, ![n]⟩ : Shape).BroadcastsInDim ⟨2, ![n, 1]⟩ ![0]) (hn : n ≠ 1)
    (x : (⟨1, ![n]⟩ : Shape).Idx → α) (k : Fin n) :
    broadcastInDim ⟨2, ![n, 1]⟩ ![0] h x (ix2 k (0 : Fin 1)) = x (ix1 k) :=
  broadcastInDim_apply _ h x (ix2 k 0) (ix1 k) (fun b => match b with
    | ⟨0, _⟩ => by show k.val = if n = 1 then 0 else k.val; rw [if_neg hn])

/-- A one-column matrix `[n, 1]` reshaped to the flat array `[n]` reads, at `k`, entry `(k, 0)`. -/
theorem flatten_apply {α : Type} {n : Nat} (h : (⟨2, ![n, 1]⟩ : Shape).ShapeCasts ⟨1, ![n]⟩)
    (y : (⟨2, ![n, 1]⟩ : Shape).Idx → α) (k : Fin n) :
    shapeCast ⟨1, ![n]⟩ y h (ix1 k) = y (ix2 k (0 : Fin 1)) :=
  shapeCast_apply y h (ix1 k) (ix2 k 0) (by
    rw [Shape.rowMajor_val_two, Shape.rowMajor_val_one]; show k.val * 1 + 0 = k.val; omega)

/-! ## The flat spelling -/

/-- The dimension numbers of a scatter of flat updates `[e]` into a flat operand `[n]` at indices `[e, 1]`:
    no window axis, the operand's one axis inserted and indexed by the index vector's one component. -/
abbrev flatDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Flat
variable {n e w : Nat} (wf : ScatterDims.WF ⟨1, ![n]⟩ ⟨2, ![e, 1]⟩ ⟨1, ![e]⟩ [] [0] [0] 1)

/-- Update `j` starts at the segment id of its row. -/
theorem flat_start (j : (⟨1, ![e]⟩ : Shape).Idx) (idx : IVec ⟨2, ![e, 1]⟩ w) :
    (flatDims n e wf).start j idx 0 = (idx (ix2 (j 0) 0)).toInt := by
  unfold ScatterDims.start
  rw [dif_pos (show (0 : Fin 1) ∈ (flatDims n e wf).scatterDimsToOperandDims from List.mem_singleton.mpr rfl)]
  have hsi : (flatDims n e wf).siIdx j ⟨List.idxOf (0 : Fin 1) (flatDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- There is no window: the only operand axis is inserted. -/
theorem flat_window (j : (⟨1, ![e]⟩ : Shape).Idx) : (flatDims n e wf).window j 0 = 0 := by
  unfold ScatterDims.window
  rw [dif_neg (fun h => by
    have h2 := (List.mem_filter.mp h).2
    simp at h2)]

/-- Update `j` lands on position `i` exactly when its row's segment id is `i`. -/
theorem flat_resultIdx (j : (⟨1, ![e]⟩ : Shape).Idx) (idx : IVec ⟨2, ![e, 1]⟩ w) (i : (⟨1, ![n]⟩ : Shape).Idx) :
    (flatDims n e wf).resultIdx? j idx = some i ↔ (idx (ix2 (j 0) 0)).toInt = ((i 0).val : ℤ) := by
  unfold ScatterDims.resultIdx?
  split_ifs with h
  · rw [Option.some.injEq]
    constructor
    · intro hi
      have h0 := (h 0).1
      rw [← hi]
      show _ = (((flatDims n e wf).start j idx 0 + ((flatDims n e wf).window j 0 : ℕ)).toNat : ℤ)
      rw [Int.toNat_of_nonneg h0, flat_start, flat_window]; simp
    · intro hi
      funext a
      obtain rfl : a = 0 := Subsingleton.elim _ _
      refine Fin.ext ?_
      show ((flatDims n e wf).start j idx 0 + ((flatDims n e wf).window j 0 : ℕ)).toNat = (i 0).val
      rw [flat_start, flat_window, hi]; simp
  · constructor
    · intro hi; exact absurd hi (by simp)
    · intro hi
      exfalso; apply h
      intro a
      obtain rfl : a = 0 := Subsingleton.elim _ _
      rw [flat_start, flat_window, hi]
      have := (i 0).isLt
      constructor <;> omega

/-- THE FLAT SCATTER READ AT `i`: the operand there plus the updates of the rows whose segment id is `i`. -/
theorem flat_apply (x : (⟨1, ![n]⟩ : Shape).Idx → EReal) (idx : IVec ⟨2, ![e, 1]⟩ w)
    (upd : (⟨1, ![e]⟩ : Shape).Idx → EReal) (i : (⟨1, ![n]⟩ : Shape).Idx) :
    Ideal.hostScatterAdd (flatDims n e wf) x idx upd i
      = x i + ∑ k : Fin e, if (idx (ix2 k 0)).toInt = ((i 0).val : ℤ) then upd (ix1 k) else 0 := by
  unfold Ideal.hostScatterAdd
  refine congrArg (x i + ·) ?_
  rw [Finset.sum_filter]
  refine Fintype.sum_equiv rowEquiv1 _ _ fun j => ?_
  show _ = if (idx (ix2 (j 0) 0)).toInt = ((i 0).val : ℤ) then upd (ix1 (j 0)) else 0
  by_cases h : (idx (ix2 (j 0) 0)).toInt = ((i 0).val : ℤ)
  · rw [if_pos ((flat_resultIdx wf j idx i).mpr h), if_pos h]
    exact congrArg upd (eq_ix1 j)
  · rw [if_neg (mt (flat_resultIdx wf j idx i).mp h), if_neg h]

end Flat

/-! ## The one-column spelling -/

/-- The dimension numbers of a scatter of one-column updates `[e, 1]` into a one-column operand `[n, 1]` at
    indices `[e, 1]`: the column is the window axis, the operand's row axis inserted and indexed. -/
abbrev colDims (n e : Nat) (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ where
  updateWindowDims := [1]
  insertedWindowDims := [0]
  scatterDimsToOperandDims := [0]
  indexVectorDim := 1
  wf := wf

section Col
variable {n e w : Nat} (wf : ScatterDims.WF ⟨2, ![n, 1]⟩ ⟨2, ![e, 1]⟩ ⟨2, ![e, 1]⟩ [1] [0] [0] 1)

/-- On the row axis update `j` starts at the segment id of its row; -/
theorem col_start0 (j : (⟨2, ![e, 1]⟩ : Shape).Idx) (idx : IVec ⟨2, ![e, 1]⟩ w) :
    (colDims n e wf).start j idx 0 = (idx (ix2 (j 0) 0)).toInt := by
  unfold ScatterDims.start
  rw [dif_pos (show (0 : Fin 2) ∈ (colDims n e wf).scatterDimsToOperandDims from List.mem_singleton.mpr rfl)]
  have hsi : (colDims n e wf).siIdx j ⟨List.idxOf (0 : Fin 2) (colDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis at `0`. -/
theorem col_start1 (j : (⟨2, ![e, 1]⟩ : Shape).Idx) (idx : IVec ⟨2, ![e, 1]⟩ w) :
    (colDims n e wf).start j idx 1 = 0 := by
  unfold ScatterDims.start
  rw [dif_neg (show ¬ (1 : Fin 2) ∈ ([0] : List (Fin 2)) by decide)]

/-- The row axis is inserted: no window coordinate there; -/
theorem col_window0 (j : (⟨2, ![e, 1]⟩ : Shape).Idx) : (colDims n e wf).window j 0 = 0 := by
  unfold ScatterDims.window
  rw [dif_neg (fun h => by
    have h2 := (List.mem_filter.mp h).2
    simp at h2)]

/-- the column axis carries the update's column coordinate. -/
theorem col_window1 (j : (⟨2, ![e, 1]⟩ : Shape).Idx) : (colDims n e wf).window j 1 = (j 1).val := by
  unfold ScatterDims.window
  rw [dif_pos (show (1 : Fin 2) ∈ (colDims n e wf).sKept from
    List.mem_filter.mpr ⟨List.mem_finRange _, by simp⟩)]
  rfl

/-- Update `j` lands on position `i` exactly when its row's segment id is `i`'s row (the columns, of width
    one, always agree). -/
theorem col_resultIdx (j : (⟨2, ![e, 1]⟩ : Shape).Idx) (idx : IVec ⟨2, ![e, 1]⟩ w) (i : (⟨2, ![n, 1]⟩ : Shape).Idx) :
    (colDims n e wf).resultIdx? j idx = some i ↔ (idx (ix2 (j 0) 0)).toInt = ((i 0).val : ℤ) := by
  have hj1 : (j 1).val = 0 := by have : (j 1).val < 1 := (j 1).isLt; omega
  have hi1 : (i 1).val = 0 := by have : (i 1).val < 1 := (i 1).isLt; omega
  unfold ScatterDims.resultIdx?
  split_ifs with h
  · rw [Option.some.injEq]
    constructor
    · intro hi
      have h0 := (h 0).1
      rw [← hi]
      show _ = (((colDims n e wf).start j idx 0 + ((colDims n e wf).window j 0 : ℕ)).toNat : ℤ)
      rw [Int.toNat_of_nonneg h0, col_start0, col_window0]; simp
    · intro hi
      funext a
      refine Fin.ext ?_
      match a with
      | ⟨0, _⟩ =>
        show ((colDims n e wf).start j idx 0 + ((colDims n e wf).window j 0 : ℕ)).toNat = (i 0).val
        rw [col_start0, col_window0, hi]; simp
      | ⟨1, _⟩ =>
        show ((colDims n e wf).start j idx 1 + ((colDims n e wf).window j 1 : ℕ)).toNat = (i 1).val
        rw [col_start1, col_window1, hj1, hi1]; simp
  · constructor
    · intro hi; exact absurd hi (by simp)
    · intro hi
      exfalso; apply h
      intro a
      match a with
      | ⟨0, _⟩ =>
        show 0 ≤ (colDims n e wf).start j idx 0 + ((colDims n e wf).window j 0 : ℕ)
          ∧ (colDims n e wf).start j idx 0 + ((colDims n e wf).window j 0 : ℕ) < ((⟨2, ![n, 1]⟩ : Shape).size 0 : ℕ)
        rw [col_start0, col_window0, hi]
        have := (i 0).isLt
        constructor <;> omega
      | ⟨1, _⟩ =>
        show 0 ≤ (colDims n e wf).start j idx 1 + ((colDims n e wf).window j 1 : ℕ)
          ∧ (colDims n e wf).start j idx 1 + ((colDims n e wf).window j 1 : ℕ) < ((⟨2, ![n, 1]⟩ : Shape).size 1 : ℕ)
        rw [col_start1, col_window1, hj1]
        have : ((⟨2, ![n, 1]⟩ : Shape).size 1 : ℕ) = 1 := rfl
        constructor <;> omega

/-- THE ONE-COLUMN SCATTER READ AT `i`: the operand there plus the updates of the rows whose segment id is
    `i`'s row. -/
theorem col_apply (x : (⟨2, ![n, 1]⟩ : Shape).Idx → EReal) (idx : IVec ⟨2, ![e, 1]⟩ w)
    (upd : (⟨2, ![e, 1]⟩ : Shape).Idx → EReal) (i : (⟨2, ![n, 1]⟩ : Shape).Idx) :
    Ideal.hostScatterAdd (colDims n e wf) x idx upd i
      = x i + ∑ k : Fin e, if (idx (ix2 k 0)).toInt = ((i 0).val : ℤ) then upd (ix2 k 0) else 0 := by
  unfold Ideal.hostScatterAdd
  refine congrArg (x i + ·) ?_
  rw [Finset.sum_filter]
  refine Fintype.sum_equiv rowEquiv2 _ _ fun j => ?_
  show _ = if (idx (ix2 (j 0) 0)).toInt = ((i 0).val : ℤ) then upd (ix2 (j 0) 0) else 0
  have hj : ix2 (j 0) (0 : Fin 1) = j := rowEquiv2.left_inv j
  by_cases h : (idx (ix2 (j 0) 0)).toInt = ((i 0).val : ℤ)
  · rw [if_pos ((col_resultIdx wf j idx i).mpr h), if_pos h]
    exact congrArg upd hj.symm
  · rw [if_neg (mt (col_resultIdx wf j idx i).mp h), if_neg h]

end Col

end Idealize.ShloMosaic.SegmentSum

end
-- ==== Proof.KernelTail.lean ====
/-
  The kernel program's result is the specification: after the region the host flattens the energies column,
  scatters it into a zero array of atoms by the segment ids, scatters the atoms into a zero array of molecules by
  the molecule ids — both accumulating scatters in the flat spelling, so both segment sums — and halves.
-/
import proofs.«100209_j70171175682200_2_alg».proof.Proof.KernelArray
import proofs.«100209_j70171175682200_2_alg».proof.Proof.LibSegmentSum
import Idealize.ShloMosaic.Lib.StableHlo.Run

noncomputable section

namespace Cert.KernelIdeal.TailValue

open Cert.KernelIdeal Cert.KernelIdeal.Gen Idealize.ShloMosaic Idealize.ShloMosaic.TcCoe Idealize.SL.Sem
open Idealize.ShloMosaic.StableHlo Idealize.ShloMosaic.ValueIdx Cert.PairEnergy
open scoped BigOperators

variable (m : (ℓ : Loc nD τ sig) → Buf (Elt Ideal) ℓ)

/-- A broadcast float constant reads, at every index, the value its pattern denotes. -/
theorem splat_apply {t : Shape} (dims : Fin S_.rank → Fin t.rank) (h : S_.BroadcastsInDim t dims) (w : BitVec 32)
    (i : t.Idx) : broadcastInDim t dims h (constant (F := Ideal) S_ .f32 w) i = Ideal.ofBits .f32 w := rfl

/-- The program's two scatters carry the flat dimension numbers. -/
theorem atoms_dims : scatter_S1000000_S20000000x1_S20000000_n_0_0_1
    = SegmentSum.flatDims 1000000 20000000 Facts₀.scatter_S1000000_S20000000x1_S20000000_n_0_0_1_wf := rfl
theorem mols_dims : scatter_S1000_S1000000x1_S1000000_n_0_0_1
    = SegmentSum.flatDims 1000 1000000 Facts₀.scatter_S1000_S1000000x1_S1000000_n_0_0_1_wf := rfl

/-- What the host operations after the region leave in the result buffer is the specification of the arguments. -/
theorem tail_eq (c : Dev nD) :
    Pipeline.afterTail₀ cfgs (dats m) 0 (V0 m) [hostOps1] c main_v9
      = energy (m ((c : Thread nD τ).loc main_arg0)) (m ((c : Thread nD τ).loc main_arg2))
          (m ((c : Thread nD τ).loc main_arg3)) := by
  unfold Pipeline.afterTail₀
  show StableHlo.after hostOps1 _ (Proc.devRef .tc main_v9) = _
  after_results
  rw [show Pipeline.withArrays (cfgs 0).spec c (V0 m c) (fun w => (dats m 0 c).arrAt w (cfgs 0).N)
        (Proc.devRef .tc main_v0) = ArrayValue.edges (m ((c : Thread nD τ).loc main_arg0)) from
      (Pipeline.withArrays_arr spec0 launch0.win.arr_inj c _ _ 1).trans (ArrayValue.final_edges m c),
    show Pipeline.withArrays (cfgs 0).spec c (V0 m c) (fun w => (dats m 0 c).arrAt w (cfgs 0).N)
        (Proc.devRef .tc main_arg2) = m ((c : Thread nD τ).loc main_arg2) from
      (Pipeline.withArrays_of_ne _ c (V0 m c) _ main_arg2
        (by exact (by decide : ∀ w, Pipeline.arrRef spec0 w ≠ main_arg2))).trans (V_main_arg2 m c),
    show Pipeline.withArrays (cfgs 0).spec c (V0 m c) (fun w => (dats m 0 c).arrAt w (cfgs 0).N)
        (Proc.devRef .tc main_arg3) = m ((c : Thread nD τ).loc main_arg3) from
      (Pipeline.withArrays_of_ne _ c (V0 m c) _ main_arg3
        (by exact (by decide : ∀ w, Pipeline.arrRef spec0 w ≠ main_arg3))).trans (V_main_arg3 m c)]
  funext i
  obtain ⟨q, rfl⟩ : ∃ q : Fin 1000, i = ix1 q := ⟨i 0, eq_ix1 i⟩
  rw [mulf_apply, splat_apply, SegmentSum.scatterAdd_ideal, SegmentSum.scatterAdd_ideal, mols_dims, atoms_dims,
    SegmentSum.flat_apply, splat_apply]
  unfold energy molEnergy
  refine congrArg (Ideal.ofBits .f32 0x3F000000#32 * ·)
    (congrArg (Ideal.ofBits .f32 0x00000000#32 + ·) (Finset.sum_congr rfl fun a _ => ?_))
  rw [SegmentSum.ids_apply _ (by decide), SegmentSum.flat_apply, splat_apply]
  unfold atomEnergy
  refine if_congr Iff.rfl
    (congrArg (Ideal.ofBits .f32 0x00000000#32 + ·) (Finset.sum_congr rfl fun k _ => ?_)) rfl
  rw [SegmentSum.ids_apply _ (by decide)]
  refine if_congr Iff.rfl ?_ rfl
  show shapeCast (⟨1, ![20000000]⟩ : Shape) (ArrayValue.edges (m ((c : Thread nD τ).loc main_arg0)))
    shapeCasts_S20000000x1_S20000000 (ix1 k) = _
  rw [SegmentSum.flatten_apply]
  rfl

/-- THE KERNEL PROGRAM'S RUN, READ: every weakly fair execution terminates with the result buffer at the
    specification of the arguments as launched, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9)
          = energy (m ((c.tc : Thread nD τ).loc main_arg0)) (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.TailValue

end
-- ==== Proof.RefEdge.lean ====
/-
  The reference's per-edge energy, read at one edge: the pair energy of the edge's squared length.

  The reference takes the length r = √(0 + Σ_c v²) first and forms everything from r: the switching argument
  as (r − 2) / (1/2) and the sixth inverse power as x²·(x²·x²) with x = 1/r. Division by 1/2 is the product
  with 2, and x²·(x²·x²) is the cube of 1/s at every squared length s in [0, +∞]; the rest of the arithmetic is
  the specification's, operation for operation.
-/
import proofs.«100209_j70171175682200_2_alg».proof.Proof.Gen.ReferenceIdeal.Read
import proofs.«100209_j70171175682200_2_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.PairEnergy
open scoped BigOperators

/-- Component c of edge k, as the row sum's index reaches it from the length's column index (k, 0). -/
theorem norm_idx (k : Fin 20000000) (c : Fin 3) :
    idx_main_call0_v1 (idx_main_call0_v2 (ix2 k 0)) c = ix2 k c := by
  funext a; refine Fin.ext ?_
  match a with
  | ⟨0, _⟩ => rfl
  | ⟨1, _⟩ => rfl

/-- The length of edge k is the root of its squared length. -/
theorem ref_length (x0 : (⟨2, ![20000000, 3]⟩ : Shape).Idx → EReal) (k : Fin 20000000) :
    val_main_v0 (F := Ideal) x0 (ix2 k 0) = Ideal.sqrt (sqLen x0 k) := by
  rw [val_main_v0_apply, val_main_call0_v2_apply, val_main_call0_v1_apply]
  simp only [val_main_call0_cst_apply, val_main_call0_v0_apply, norm_idx, Ideal.ofBits_def, Ideal.ofBits_zero_f32,
    zero_add, Ideal.hostUnary_sqrt_def, Ideal.mulf_def]
  rfl

/-- THE REFERENCE'S EDGE ENERGY AT EDGE k is the specification's. -/
theorem ref_edge (x0 : (⟨2, ![20000000, 3]⟩ : Shape).Idx → EReal) (k : Fin 20000000) :
    val_main_v28 (F := Ideal) x0 (ix2 k 0) = edge (sqLen x0 k) := by
  have hs : 0 ≤ sqLen x0 k := sqLen_nonneg x0 k
  have hr := ref_length x0 k
  generalize sqLen x0 k = s at hs hr ⊢
  -- the broadcast constants
  have e1 : val_main_v1 (F := Ideal) (ix2 k 0) = Ideal.ofBits .f32 0x40000000#32 :=
    (val_main_v1_apply _).trans (val_main_cst_apply _)
  have e3 : val_main_v3 (F := Ideal) (ix2 k 0) = Ideal.ofBits .f32 0x3F000000#32 :=
    (val_main_v3_apply _).trans (val_main_cst_0_apply _)
  have e6 : val_main_v6 (F := Ideal) (ix2 k 0) = Ideal.ofBits .f32 0x40000000#32 :=
    (val_main_v6_apply _).trans (val_main_cst_1_apply _)
  have e8 : val_main_v8 (F := Ideal) (ix2 k 0) = Ideal.ofBits .f32 0x40400000#32 :=
    (val_main_v8_apply _).trans (val_main_cst_2_apply _)
  have e11 : val_main_v11 (F := Ideal) (ix2 k 0) = Ideal.ofBits .f32 0x3F800000#32 :=
    (val_main_v11_apply _).trans (val_main_cst_3_apply _)
  have e13 : val_main_v13 (F := Ideal) (ix2 k 0) = Ideal.ofBits .f32 0x40000000#32 :=
    (val_main_v13_apply _).trans (val_main_cst_4_apply _)
  have e15 : val_main_v15 (F := Ideal) (ix2 k 0) = Ideal.ofBits .f32 0x3F800000#32 :=
    (val_main_v15_apply _).trans (val_main_cst_5_apply _)
  have e17 : val_main_v17 (F := Ideal) (ix2 k 0) = Ideal.ofBits .f32 0x40200000#32 :=
    (val_main_v17_apply _).trans (val_main_cst_6_apply _)
  have e19 : val_main_v19 (F := Ideal) (ix2 k 0) = Ideal.ofBits .f32 0x00000000#32 :=
    (val_main_v19_apply _).trans (val_main_cst_7_apply _)
  have e21 : val_main_v21 (F := Ideal) (ix2 k 0) = Ideal.ofBits .f32 0x3F800000#32 :=
    (val_main_v21_apply _).trans (val_main_cst_8_apply _)
  -- the switching argument: (r − 2) / (1/2) = (r − 2)·2
  have h2 : val_main_v2 (F := Ideal) x0 (ix2 k 0) = Ideal.sqrt s - Ideal.ofBits .f32 0x40000000#32 := by
    rw [val_main_v2_apply, hr, e1]; rfl
  have h4 : val_main_v4 (F := Ideal) x0 (ix2 k 0)
      = (Ideal.sqrt s - Ideal.ofBits .f32 0x40000000#32) * Ideal.ofBits .f32 0x40000000#32 := by
    rw [val_main_v4_apply, h2, e3]
    show Ideal.div _ _ = _
    rw [ofBits_half, div_half, ← ofBits_two]
  -- the switch: 1 + t²(2t − 3) where r > 2, else 1; replaced by 0 where r > 2.5
  have h5 : val_main_v5 (F := Ideal) x0 (ix2 k 0)
      = (Ideal.sqrt s - Ideal.ofBits .f32 0x40000000#32) * Ideal.ofBits .f32 0x40000000#32
        * ((Ideal.sqrt s - Ideal.ofBits .f32 0x40000000#32) * Ideal.ofBits .f32 0x40000000#32) := by
    rw [val_main_v5_apply, h4]; rfl
  have h7 : val_main_v7 (F := Ideal) x0 (ix2 k 0)
      = Ideal.ofBits .f32 0x40000000#32
        * ((Ideal.sqrt s - Ideal.ofBits .f32 0x40000000#32) * Ideal.ofBits .f32 0x40000000#32) := by
    rw [val_main_v7_apply, e6, h4]; rfl
  have h9 : val_main_v9 (F := Ideal) x0 (ix2 k 0)
      = Ideal.ofBits .f32 0x40000000#32
          * ((Ideal.sqrt s - Ideal.ofBits .f32 0x40000000#32) * Ideal.ofBits .f32 0x40000000#32)
        - Ideal.ofBits .f32 0x40400000#32 := by
    rw [val_main_v9_apply, h7, e8]; rfl
  have h12 : val_main_v12 (F := Ideal) x0 (ix2 k 0)
      = Ideal.ofBits .f32 0x3F800000#32
        + (Ideal.sqrt s - Ideal.ofBits .f32 0x40000000#32) * Ideal.ofBits .f32 0x40000000#32
            * ((Ideal.sqrt s - Ideal.ofBits .f32 0x40000000#32) * Ideal.ofBits .f32 0x40000000#32)
          * (Ideal.ofBits .f32 0x40000000#32
              * ((Ideal.sqrt s - Ideal.ofBits .f32 0x40000000#32) * Ideal.ofBits .f32 0x40000000#32)
            - Ideal.ofBits .f32 0x40400000#32) := by
    rw [val_main_v12_apply, e11, val_main_v10_apply, h5, h9]; rfl
  have h14 : val_main_v14 (F := Ideal) x0 (ix2 k 0)
      = Ideal.cmp .ogt (Ideal.sqrt s) (Ideal.ofBits .f32 0x40000000#32) := by
    rw [val_main_v14_apply, hr, e13]; rfl
  have h18 : val_main_v18 (F := Ideal) x0 (ix2 k 0)
      = Ideal.cmp .ogt (Ideal.sqrt s) (Ideal.ofBits .f32 0x40200000#32) := by
    rw [val_main_v18_apply, hr, e17]; rfl
  have h20 : val_main_v20 (F := Ideal) x0 (ix2 k 0)
      = Scalar.select (Ideal.cmp .ogt (Ideal.sqrt s) (Ideal.ofBits .f32 0x40200000#32))
          (Ideal.ofBits .f32 0x00000000#32)
          (Scalar.select (Ideal.cmp .ogt (Ideal.sqrt s) (Ideal.ofBits .f32 0x40000000#32))
            (Ideal.ofBits .f32 0x3F800000#32
              + (Ideal.sqrt s - Ideal.ofBits .f32 0x40000000#32) * Ideal.ofBits .f32 0x40000000#32
                  * ((Ideal.sqrt s - Ideal.ofBits .f32 0x40000000#32) * Ideal.ofBits .f32 0x40000000#32)
                * (Ideal.ofBits .f32 0x40000000#32
                    * ((Ideal.sqrt s - Ideal.ofBits .f32 0x40000000#32) * Ideal.ofBits .f32 0x40000000#32)
                  - Ideal.ofBits .f32 0x40400000#32))
            (Ideal.ofBits .f32 0x3F800000#32)) := by
    rw [val_main_v20_apply, h18, e19, val_main_v16_apply, h14, h12, e15]
  -- the sixth inverse power: x²·(x²·x²) with x = 1/r is the cube of 1/s
  have h22 : val_main_v22 (F := Ideal) x0 (ix2 k 0) = Ideal.div 1 (Ideal.sqrt s) := by
    rw [val_main_v22_apply, e21, hr, ofBits_one]; rfl
  have h25 : val_main_v25 (F := Ideal) x0 (ix2 k 0) = Ideal.div 1 s * Ideal.div 1 s * Ideal.div 1 s := by
    rw [val_main_v25_apply, val_main_v24_apply, val_main_v23_apply, h22]
    exact inv_pow_six s hs
  rw [val_main_v28_apply, val_main_v27_apply, val_main_v26_apply, h25, h20]
  unfold edge
  rw [ofBits_one]
  rfl

end Cert.ReferenceIdeal.RefValue

end
-- ==== Proof.RefEnergy.lean ====
/-
  The reference's result is the specification: its two accumulating scatters, in the one-column spelling, are the
  two segment sums — edges into atoms by the segment ids, atoms into molecules by the molecule ids — each started
  from a zero array; the final reshape drops the column and the last product halves.
-/
import proofs.«100209_j70171175682200_2_alg».proof.Proof.RefEdge
import proofs.«100209_j70171175682200_2_alg».proof.Proof.LibSegmentSum

noncomputable section

namespace Cert.ReferenceIdeal.RefValue

open Cert.ReferenceIdeal Cert.ReferenceIdeal.Gen Cert.ReferenceIdeal.Read
open Idealize.ShloMosaic Idealize.ShloMosaic.ValueIdx Cert.PairEnergy
open scoped BigOperators

/-- The broadcast segment ids at (k, 0) are the segment id of edge k. -/
theorem seg_idx (k : Fin 20000000) : idx_main_v30 (ix2 k (0 : Fin 1)) = ix1 k := by
  funext a; refine Fin.ext ?_
  match a with
  | ⟨0, _⟩ => rfl

/-- The broadcast molecule ids at (a, 0) are the molecule id of atom a. -/
theorem mol_idx (a : Fin 1000000) : idx_main_v33 (ix2 a (0 : Fin 1)) = ix1 a := by
  funext b; refine Fin.ext ?_
  match b with
  | ⟨0, _⟩ => rfl

/-- The reference's two scatters carry the one-column dimension numbers. -/
theorem atoms_dims : scatter_S1000000x1_S20000000x1_S20000000x1_1_0_0_1
    = SegmentSum.colDims 1000000 20000000 Facts₀.scatter_S1000000x1_S20000000x1_S20000000x1_1_0_0_1_wf := rfl
theorem mols_dims : scatter_S1000x1_S1000000x1_S1000000x1_1_0_0_1
    = SegmentSum.colDims 1000 1000000 Facts₀.scatter_S1000x1_S1000000x1_S1000000x1_1_0_0_1_wf := rfl

/-- The first scatter at (a, 0) is atom a's energy. -/
theorem ref_atoms (x0 : (⟨2, ![20000000, 3]⟩ : Shape).Idx → EReal) (x2 : (⟨1, ![20000000]⟩ : Shape).Idx → BitVec 32)
    (a : Fin 1000000) :
    val_main_v31 (F := Ideal) x0 x2 (ix2 a 0) = atomEnergy x0 x2 a := by
  unfold val_main_v31 atomEnergy
  rw [SegmentSum.scatterAdd_ideal, atoms_dims, SegmentSum.col_apply]
  refine congrArg₂ (· + ·) ?_ (Finset.sum_congr rfl fun k _ => ?_)
  · rw [val_main_v29_apply, val_main_cst_9_apply]; rfl
  · rw [val_main_v30_apply, seg_idx, ref_edge]

/-- The second scatter at (i, 0) is molecule i's energy. -/
theorem ref_mols (x0 : (⟨2, ![20000000, 3]⟩ : Shape).Idx → EReal) (x2 : (⟨1, ![20000000]⟩ : Shape).Idx → BitVec 32)
    (x3 : (⟨1, ![1000000]⟩ : Shape).Idx → BitVec 32) (i : Fin 1000) :
    val_main_v34 (F := Ideal) x0 x2 x3 (ix2 i 0) = molEnergy x0 x2 x3 i := by
  unfold val_main_v34 molEnergy
  rw [SegmentSum.scatterAdd_ideal, mols_dims, SegmentSum.col_apply]
  refine congrArg₂ (· + ·) ?_ (Finset.sum_congr rfl fun a _ => ?_)
  · rw [val_main_v32_apply, val_main_cst_10_apply]; rfl
  · rw [val_main_v33_apply, mol_idx, ref_atoms]

/-- THE REFERENCE'S RESULT is the specification of its arguments. -/
theorem ref_eq (x0 : (⟨2, ![20000000, 3]⟩ : Shape).Idx → EReal) (x2 : (⟨1, ![20000000]⟩ : Shape).Idx → BitVec 32)
    (x3 : (⟨1, ![1000000]⟩ : Shape).Idx → BitVec 32) :
    val_main_v37 (F := Ideal) x0 x2 x3 = energy x0 x2 x3 := by
  funext i
  obtain ⟨q, rfl⟩ : ∃ q : Fin 1000, i = ix1 q := ⟨i 0, eq_ix1 i⟩
  have hi : idx_main_v35 (ix1 q) = ix2 q (0 : Fin 1) := by
    funext a; refine Fin.ext ?_
    match a with
    | ⟨0, _⟩ => exact Nat.div_one _
    | ⟨1, _⟩ => rfl
  rw [val_main_v37_apply, val_main_v36_apply, val_main_cst_11_apply, val_main_v35_apply, hi, ref_mols]
  rfl

end Cert.ReferenceIdeal.RefValue

end
-- ==== Proof.lean ====
/-
  The molecular energies of a pairwise potential with a cutoff switch, summed edges → atoms → molecules: the
  kernel program against its reference, on the extended reals.

  Both programs compute, per edge, the pair energy of the edge's squared length s = |v|² and then sum the edge
  energies into atoms by the segment ids, the atom energies into molecules by the molecule ids, and halve. They
  differ in three ways, none of which changes a value on the extended reals:
    • the reference scales the switching argument by dividing by 1/2, the kernel by multiplying by 2;
    • the reference forms the sixth inverse power from x = 1/√s as x²·(x²·x²), the kernel as (1/s)³ — equal for
      every s in [0, +∞], and s, a sum of three squares, is always there (at s = 0 both are +∞, at s = +∞ both 0);
    • the reference carries the energies as one-column matrices through its two accumulating scatters, the kernel
      as flat arrays — the same sums over the same sets of rows.
  So both results are the one function `PairEnergy.energy` of the arguments. No finiteness of the inputs is used.
  The frames are the generated ones; the reference's frame is its generated run with the result dropped; the
  idealization rewrote nothing, so `preserves` is trivial.
-/
import proofs.«100209_j70171175682200_2_alg».proof.Defs
import proofs.«100209_j70171175682200_2_alg».proof.Proof.Gen.Kernel
import proofs.«100209_j70171175682200_2_alg».proof.Proof.Gen.Kernel.Skeleton
import proofs.«100209_j70171175682200_2_alg».proof.Proof.Gen.Kernel.Launch
import proofs.«100209_j70171175682200_2_alg».proof.Proof.Gen.Kernel.Points
import proofs.«100209_j70171175682200_2_alg».proof.Proof.Gen.Kernel.Frame
import proofs.«100209_j70171175682200_2_alg».proof.Proof.Gen.KernelIdeal
import proofs.«100209_j70171175682200_2_alg».proof.Proof.Gen.KernelIdeal.Skeleton
import proofs.«100209_j70171175682200_2_alg».proof.Proof.Gen.KernelIdeal.Launch
import proofs.«100209_j70171175682200_2_alg».proof.Proof.Gen.KernelIdeal.Points
import proofs.«100209_j70171175682200_2_alg».proof.Proof.Gen.KernelIdeal.Frame
import proofs.«100209_j70171175682200_2_alg».proof.Proof.Gen.ReferenceIdeal
import proofs.«100209_j70171175682200_2_alg».proof.Proof.Gen.Pre_finite_inputs
import proofs.«100209_j70171175682200_2_alg».proof.Proof.Gen.ReferenceIdeal.Run
import proofs.«100209_j70171175682200_2_alg».proof.Proof.Gen.ReferenceIdeal.Read
import proofs.«100209_j70171175682200_2_alg».proof.Proof.KernelTail
import proofs.«100209_j70171175682200_2_alg».proof.Proof.RefEnergy
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at `PairEnergy.energy` of arguments that agree. -/
theorem algebraic : Cert.algebraic_KernelIdeal_ReferenceIdeal := by
  intro m ρ m' ρ' _ hagree
  refine ⟨fun c => Cert.PairEnergy.energy
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.TailValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
